-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) (main_arg2 : IVec S8192x64 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S256x8192 : Shape := ⟨2, ![256, 8192]⟩
abbrev S256x64 : Shape := ⟨2, ![256, 64]⟩
abbrev S256x128 : Shape := ⟨2, ![256, 128]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .i32⟩
  | .hbm, ⟨3, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x64, .f32⟩
  | .local _ .vmem, ⟨3, _⟩ => ⟨S256x64, .f32⟩
  | .local _ .vmem, ⟨4, _⟩ => ⟨S256x64, .i32⟩
  | .local _ .vmem, ⟨5, _⟩ => ⟨S256x64, .i32⟩
  | .local _ .vmem, ⟨6, _⟩ => ⟨S256x8192, .f32⟩
  | .local _ .vmem, ⟨7, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x64_S256x64_0_0 : ∀ a, (![0, 0] : Fin 2 → Nat) a + S256x64.size a ≤ S256x64.size a
  h_S256x64 : 0 < S256x64.numel
  inb_S256x8192_S256x128_0_0 : ∀ a, (![0, 0] : Fin 2 → Nat) a + S256x128.size a ≤ S256x8192.size a
  h_S256x128 : 0 < S256x128.numel
  inb_S256x64_S256x1_0_0 : ∀ a, (![0, 0] : Fin 2 → Nat) a + S256x1.size a ≤ S256x64.size a
  h_S256x1 : 0 < S256x1.numel
  slices_S256x64_o0_0_S256x1 : S256x64.Slices ![0, 0] S256x1
  broadcasts_S256x1_S256x128 : S256x1.Broadcasts S256x128
  inb_S256x8192_S256x128_0_128 : ∀ a, (![0, 128] : Fin 2 → Nat) a + S256x128.size a ≤ S256x8192.size a
  inb_S256x64_S256x1_0_1 : ∀ a, (![0, 1] : Fin 2 → Nat) a + S256x1.size a ≤ S256x64.size a
  slices_S256x64_o0_1_S256x1 : S256x64.Slices ![0, 1] S256x1
  inb_S256x8192_S256x128_0_256 : ∀ a, (![0, 256] : Fin 2 → Nat) a + S256x128.size a ≤ S256x8192.size a
  inb_S256x64_S256x1_0_2 : ∀ a, (![0, 2] : Fin 2 → Nat) a + S256x1.size a ≤ S256x64.size a
  slices_S256x64_o0_2_S256x1 : S256x64.Slices ![0, 2] S256x1
  inb_S256x8192_S256x128_0_384 : ∀ a, (![0, 384] : Fin 2 → Nat) a + S256x128.size a ≤ S256x8192.size a
  inb_S256x64_S256x1_0_3 : ∀ a, (![0, 3] : Fin 2 → Nat) a + S256x1.size a ≤ S256x64.size a
  slices_S256x64_o0_3_S256x1 : S256x64.Slices ![0, 3] S256x1
  inb_S256x8192_S256x128_0_512 : ∀ a, (![0, 512] : Fin 2 → Nat) a + S256x128.size a ≤ S256x8192.size a
  inb_S256x64_S256x1_0_4 : ∀ a, (![0, 4] : Fin 2 → Nat) a + S256x1.size a ≤ S256x64.size a
  slices_S256x64_o0_4_S256x1 : S256x64.Slices ![0, 4] S256x1
  inb_S256x8192_S256x128_0_640 : ∀ a, (![0, 640] : Fin 2 → Nat) a + S256x128.size a ≤ S256x8192.size a
  inb_S256x64_S256x1_0_5 : ∀ a, (![0, 5] : Fin 2 → Nat) a + S256x1.size a ≤ S256x64.size a
  slices_S256x64_o0_5_S256x1 : S256x64.Slices ![0, 5] S256x1
  inb_S256x8192_S256x128_0_768 : ∀ a, (![0, 768] : Fin 2 → Nat) a + S256x128.size a ≤ S256x8192.size a
  inb_S256x64_S256x1_0_6 : ∀ a, (![0, 6] : Fin 2 → Nat) a + S256x1.size a ≤ S256x64.size a
  slices_S256x64_o0_6_S256x1 : S256x64.Slices ![0, 6] S256x1
  inb_S256x8192_S256x128_0_896 : ∀ a, (![0, 896] : Fin 2 → Nat) a + S256x128.size a ≤ S256x8192.size a
  inb_S256x64_S256x1_0_7 : ∀ a, (![0, 7] : Fin 2 → Nat) a + S256x1.size a ≤ S256x64.size a
  slices_S256x64_o0_7_S256x1 : S256x64.Slices ![0, 7] S256x1
  inb_S256x8192_S256x128_0_1024 : ∀ a, (![0, 1024] : Fin 2 → Nat) a + S256x128.size a ≤ S256x8192.size a
  inb_S256x64_S256x1_0_8 : ∀ a, (![0, 8] : Fin 2 → Nat) a + S256x1.size a ≤ S256x64.size a
  slices_S256x64_o0_8_S256x1 : S256x64.Slices ![0, 8] S256x1
  inb_S256x8192_S256x128_0_1152 : ∀ a, (![0, 1152] : Fin 2 → Nat) a + S256x128.size a ≤ S256x8192.size a
  inb_S256x64_S256x1_0_9 : ∀ a, (![0, 9] : Fin 2 → Nat) a + S256x1.size a ≤ S256x64.size a
  slices_S256x64_o0_9_S256x1 : S256x64.Slices ![0, 9] S256x1
  inb_S256x8192_S256x128_0_1280 : ∀ a, (![0, 1280] : Fin 2 → Nat) a + S256x128.size a ≤ S256x8192.size a
  inb_S256x64_S256x1_0_10 : ∀ a, (![0, 10] : Fin 2 → Nat) a + S256x1.size a ≤ S256x64.size a
  slices_S256x64_o0_10_S256x1 : S256x64.Slices ![0, 10] S256x1
  inb_S256x8192_S256x128_0_1408 : ∀ a, (![0, 1408] : Fin 2 → Nat) a + S256x128.size a ≤ S256x8192.size a
  inb_S256x64_S256x1_0_11 : ∀ a, (![0, 11] : Fin 2 → Nat) a + S256x1.size a ≤ S256x64.size a
  slices_S256x64_o0_11_S256x1 : S256x64.Slices ![0, 11] S256x1
  inb_S256x8192_S256x128_0_1536 : ∀ a, (![0, 1536] : Fin 2 → Nat) a + S256x128.size a ≤ S256x8192.size a
  inb_S256x64_S256x1_0_12 : ∀ a, (![0, 12] : Fin 2 → Nat) a + S256x1.size a ≤ S256x64.size a
  slices_S256x64_o0_12_S256x1 : S256x64.Slices ![0, 12] S256x1
  inb_S256x8192_S256x128_0_1664 : ∀ a, (![0, 1664] : Fin 2 → Nat) a + S256x128.size a ≤ S256x8192.size a
  inb_S256x64_S256x1_0_13 : ∀ a, (![0, 13] : Fin 2 → Nat) a + S256x1.size a ≤ S256x64.size a
  slices_S256x64_o0_13_S256x1 : S256x64.Slices ![0, 13] S256x1
  inb_S256x8192_S256x128_0_1792 : ∀ a, (![0, 1792] : Fin 2 → Nat) a + S256x128.size a ≤ S256x8192.size a
  inb_S256x64_S256x1_0_14 : ∀ a, (![0, 14] : Fin 2 → Nat) a + S256x1.size a ≤ S256x64.size a
  slices_S256x64_o0_14_S256x1 : S256x64.Slices ![0, 14] S256x1
  inb_S256x8192_S256x128_0_1920 : ∀ a, (![0, 1920] : Fin 2 → Nat) a + S256x128.size a ≤ S256x8192.size a
  inb_S256x64_S256x1_0_15 : ∀ a, (![0, 15] : Fin 2 → Nat) a + S256x1.size a ≤ S256x64.size a
  slices_S256x64_o0_15_S256x1 : S256x64.Slices ![0, 15] S256x1
  inb_S256x8192_S256x128_0_2048 : ∀ a, (![0, 2048] : Fin 2 → Nat) a + S256x128.size a ≤ S256x8192.size a
  inb_S256x64_S256x1_0_16 : ∀ a, (![0, 16] : Fin 2 → Nat) a + S256x1.size a ≤ S256x64.size a
  slices_S256x64_o0_16_S256x1 : S256x64.Slices ![0, 16] S256x1
  inb_S256x8192_S256x128_0_2176 : ∀ a, (![0, 2176] : Fin 2 → Nat) a + S256x128.size a ≤ S256x8192.size a
  inb_S256x64_S256x1_0_17 : ∀ a, (![0, 17] : Fin 2 → Nat) a + S256x1.size a ≤ S256x64.size a
  slices_S256x64_o0_17_S256x1 : S256x64.Slices ![0, 17] S256x1
  inb_S256x8192_S256x128_0_2304 : ∀ a, (![0, 2304] : Fin 2 → Nat) a + S256x128.size a ≤ S256x8192.size a
  inb_S256x64_S256x1_0_18 : ∀ a, (![0, 18] : Fin 2 → Nat) a + S256x1.size a ≤ S256x64.size a
  slices_S256x64_o0_18_S256x1 : S256x64.Slices ![0, 18] S256x1
  inb_S256x8192_S256x128_0_2432 : ∀ a, (![0, 2432] : Fin 2 → Nat) a + S256x128.size a ≤ S256x8192.size a
  inb_S256x64_S256x1_0_19 : ∀ a, (![0, 19] : Fin 2 → Nat) a + S256x1.size a ≤ S256x64.size a
  slices_S256x64_o0_19_S256x1 : S256x64.Slices ![0, 19] S256x1
  inb_S256x8192_S256x128_0_2560 : ∀ a, (![0, 2560] : Fin 2 → Nat) a + S256x128.size a ≤ S256x8192.size a
  inb_S256x64_S256x1_0_20 : ∀ a, (![0, 20] : Fin 2 → Nat) a + S256x1.size a ≤ S256x64.size a
  slices_S256x64_o0_20_S256x1 : S256x64.Slices ![0, 20] S256x1
  inb_S256x8192_S256x128_0_2688 : ∀ a, (![0, 2688] : Fin 2 → Nat) a + S256x128.size a ≤ S256x8192.size a
  inb_S256x64_S256x1_0_21 : ∀ a, (![0, 21] : Fin 2 → Nat) a + S256x1.size a ≤ S256x64.size a
  slices_S256x64_o0_21_S256x1 : S256x64.Slices ![0, 21] S256x1
  inb_S256x8192_S256x128_0_2816 : ∀ a, (![0, 2816] : Fin 2 → Nat) a + S256x128.size a ≤ S256x8192.size a
  inb_S256x64_S256x1_0_22 : ∀ a, (![0, 22] : Fin 2 → Nat) a + S256x1.size a ≤ S256x64.size a
  slices_S256x64_o0_22_S256x1 : S256x64.Slices ![0, 22] S256x1
  inb_S256x8192_S256x128_0_2944 : ∀ a, (![0, 2944] : Fin 2 → Nat) a + S256x128.size a ≤ S256x8192.size a
  inb_S256x64_S256x1_0_23 : ∀ a, (![0, 23] : Fin 2 → Nat) a + S256x1.size a ≤ S256x64.size a
  slices_S256x64_o0_23_S256x1 : S256x64.Slices ![0, 23] S256x1
  inb_S256x8192_S256x128_0_3072 : ∀ a, (![0, 3072] : Fin 2 → Nat) a + S256x128.size a ≤ S256x8192.size a
  inb_S256x64_S256x1_0_24 : ∀ a, (![0, 24] : Fin 2 → Nat) a + S256x1.size a ≤ S256x64.size a
  slices_S256x64_o0_24_S256x1 : S256x64.Slices ![0, 24] S256x1
  inb_S256x8192_S256x128_0_3200 : ∀ a, (![0, 3200] : Fin 2 → Nat) a + S256x128.size a ≤ S256x8192.size a
  inb_S256x64_S256x1_0_25 : ∀ a, (![0, 25] : Fin 2 → Nat) a + S256x1.size a ≤ S256x64.size a
  slices_S256x64_o0_25_S256x1 : S256x64.Slices ![0, 25] S256x1
  inb_S256x8192_S256x128_0_3328 : ∀ a, (![0, 3328] : Fin 2 → Nat) a + S256x128.size a ≤ S256x8192.size a
  inb_S256x64_S256x1_0_26 : ∀ a, (![0, 26] : Fin 2 → Nat) a + S256x1.size a ≤ S256x64.size a
  slices_S256x64_o0_26_S256x1 : S256x64.Slices ![0, 26] S256x1
  inb_S256x8192_S256x128_0_3456 : ∀ a, (![0, 3456] : Fin 2 → Nat) a + S256x128.size a ≤ S256x8192.size a
  inb_S256x64_S256x1_0_27 : ∀ a, (![0, 27] : Fin 2 → Nat) a + S256x1.size a ≤ S256x64.size a
  slices_S256x64_o0_27_S256x1 : S256x64.Slices ![0, 27] S256x1
  inb_S256x8192_S256x128_0_3584 : ∀ a, (![0, 3584] : Fin 2 → Nat) a + S256x128.size a ≤ S256x8192.size a
  inb_S256x64_S256x1_0_28 : ∀ a, (![0, 28] : Fin 2 → Nat) a + S256x1.size a ≤ S256x64.size a
  slices_S256x64_o0_28_S256x1 : S256x64.Slices ![0, 28] S256x1
  inb_S256x8192_S256x128_0_3712 : ∀ a, (![0, 3712] : Fin 2 → Nat) a + S256x128.size a ≤ S256x8192.size a
  inb_S256x64_S256x1_0_29 : ∀ a, (![0, 29] : Fin 2 → Nat) a + S256x1.size a ≤ S256x64.size a
  slices_S256x64_o0_29_S256x1 : S256x64.Slices ![0, 29] S256x1
  inb_S256x8192_S256x128_0_3840 : ∀ a, (![0, 3840] : Fin 2 → Nat) a + S256x128.size a ≤ S256x8192.size a
  inb_S256x64_S256x1_0_30 : ∀ a, (![0, 30] : Fin 2 → Nat) a + S256x1.size a ≤ S256x64.size a
  slices_S256x64_o0_30_S256x1 : S256x64.Slices ![0, 30] S256x1
  inb_S256x8192_S256x128_0_3968 : ∀ a, (![0, 3968] : Fin 2 → Nat) a + S256x128.size a ≤ S256x8192.size a
  inb_S256x64_S256x1_0_31 : ∀ a, (![0, 31] : Fin 2 → Nat) a + S256x1.size a ≤ S256x64.size a
  slices_S256x64_o0_31_S256x1 : S256x64.Slices ![0, 31] S256x1
  inb_S256x8192_S256x128_0_4096 : ∀ a, (![0, 4096] : Fin 2 → Nat) a + S256x128.size a ≤ S256x8192.size a
  inb_S256x64_S256x1_0_32 : ∀ a, (![0, 32] : Fin 2 → Nat) a + S256x1.size a ≤ S256x64.size a
  slices_S256x64_o0_32_S256x1 : S256x64.Slices ![0, 32] S256x1
  inb_S256x8192_S256x128_0_4224 : ∀ a, (![0, 4224] : Fin 2 → Nat) a + S256x128.size a ≤ S256x8192.size a
  inb_S256x64_S256x1_0_33 : ∀ a, (![0, 33] : Fin 2 → Nat) a + S256x1.size a ≤ S256x64.size a
  slices_S256x64_o0_33_S256x1 : S256x64.Slices ![0, 33] S256x1
  inb_S256x8192_S256x128_0_4352 : ∀ a, (![0, 4352] : Fin 2 → Nat) a + S256x128.size a ≤ S256x8192.size a
  inb_S256x64_S256x1_0_34 : ∀ a, (![0, 34] : Fin 2 → Nat) a + S256x1.size a ≤ S256x64.size a
  slices_S256x64_o0_34_S256x1 : S256x64.Slices ![0, 34] S256x1
  inb_S256x8192_S256x128_0_4480 : ∀ a, (![0, 4480] : Fin 2 → Nat) a + S256x128.size a ≤ S256x8192.size a
  inb_S256x64_S256x1_0_35 : ∀ a, (![0, 35] : Fin 2 → Nat) a + S256x1.size a ≤ S256x64.size a
  slices_S256x64_o0_35_S256x1 : S256x64.Slices ![0, 35] S256x1
  inb_S256x8192_S256x128_0_4608 : ∀ a, (![0, 4608] : Fin 2 → Nat) a + S256x128.size a ≤ S256x8192.size a
  inb_S256x64_S256x1_0_36 : ∀ a, (![0, 36] : Fin 2 → Nat) a + S256x1.size a ≤ S256x64.size a
  slices_S256x64_o0_36_S256x1 : S256x64.Slices ![0, 36] S256x1
  inb_S256x8192_S256x128_0_4736 : ∀ a, (![0, 4736] : Fin 2 → Nat) a + S256x128.size a ≤ S256x8192.size a
  inb_S256x64_S256x1_0_37 : ∀ a, (![0, 37] : Fin 2 → Nat) a + S256x1.size a ≤ S256x64.size a
  slices_S256x64_o0_37_S256x1 : S256x64.Slices ![0, 37] S256x1
  inb_S256x8192_S256x128_0_4864 : ∀ a, (![0, 4864] : Fin 2 → Nat) a + S256x128.size a ≤ S256x8192.size a
  inb_S256x64_S256x1_0_38 : ∀ a, (![0, 38] : Fin 2 → Nat) a + S256x1.size a ≤ S256x64.size a
  slices_S256x64_o0_38_S256x1 : S256x64.Slices ![0, 38] S256x1
  inb_S256x8192_S256x128_0_4992 : ∀ a, (![0, 4992] : Fin 2 → Nat) a + S256x128.size a ≤ S256x8192.size a
  inb_S256x64_S256x1_0_39 : ∀ a, (![0, 39] : Fin 2 → Nat) a + S256x1.size a ≤ S256x64.size a
  slices_S256x64_o0_39_S256x1 : S256x64.Slices ![0, 39] S256x1
  inb_S256x8192_S256x128_0_5120 : ∀ a, (![0, 5120] : Fin 2 → Nat) a + S256x128.size a ≤ S256x8192.size a
  inb_S256x64_S256x1_0_40 : ∀ a, (![0, 40] : Fin 2 → Nat) a + S256x1.size a ≤ S256x64.size a
  slices_S256x64_o0_40_S256x1 : S256x64.Slices ![0, 40] S256x1
  inb_S256x8192_S256x128_0_5248 : ∀ a, (![0, 5248] : Fin 2 → Nat) a + S256x128.size a ≤ S256x8192.size a
  inb_S256x64_S256x1_0_41 : ∀ a, (![0, 41] : Fin 2 → Nat) a + S256x1.size a ≤ S256x64.size a
  slices_S256x64_o0_41_S256x1 : S256x64.Slices ![0, 41] S256x1
  inb_S256x8192_S256x128_0_5376 : ∀ a, (![0, 5376] : Fin 2 → Nat) a + S256x128.size a ≤ S256x8192.size a
  inb_S256x64_S256x1_0_42 : ∀ a, (![0, 42] : Fin 2 → Nat) a + S256x1.size a ≤ S256x64.size a
  slices_S256x64_o0_42_S256x1 : S256x64.Slices ![0, 42] S256x1
  inb_S256x8192_S256x128_0_5504 : ∀ a, (![0, 5504] : Fin 2 → Nat) a + S256x128.size a ≤ S256x8192.size a
  inb_S256x64_S256x1_0_43 : ∀ a, (![0, 43] : Fin 2 → Nat) a + S256x1.size a ≤ S256x64.size a
  slices_S256x64_o0_43_S256x1 : S256x64.Slices ![0, 43] S256x1
  inb_S256x8192_S256x128_0_5632 : ∀ a, (![0, 5632] : Fin 2 → Nat) a + S256x128.size a ≤ S256x8192.size a
  inb_S256x64_S256x1_0_44 : ∀ a, (![0, 44] : Fin 2 → Nat) a + S256x1.size a ≤ S256x64.size a
  slices_S256x64_o0_44_S256x1 : S256x64.Slices ![0, 44] S256x1
  inb_S256x8192_S256x128_0_5760 : ∀ a, (![0, 5760] : Fin 2 → Nat) a + S256x128.size a ≤ S256x8192.size a
  inb_S256x64_S256x1_0_45 : ∀ a, (![0, 45] : Fin 2 → Nat) a + S256x1.size a ≤ S256x64.size a
  slices_S256x64_o0_45_S256x1 : S256x64.Slices ![0, 45] S256x1
  inb_S256x8192_S256x128_0_5888 : ∀ a, (![0, 5888] : Fin 2 → Nat) a + S256x128.size a ≤ S256x8192.size a
  inb_S256x64_S256x1_0_46 : ∀ a, (![0, 46] : Fin 2 → Nat) a + S256x1.size a ≤ S256x64.size a
  slices_S256x64_o0_46_S256x1 : S256x64.Slices ![0, 46] S256x1
  inb_S256x8192_S256x128_0_6016 : ∀ a, (![0, 6016] : Fin 2 → Nat) a + S256x128.size a ≤ S256x8192.size a
  inb_S256x64_S256x1_0_47 : ∀ a, (![0, 47] : Fin 2 → Nat) a + S256x1.size a ≤ S256x64.size a
  slices_S256x64_o0_47_S256x1 : S256x64.Slices ![0, 47] S256x1
  inb_S256x8192_S256x128_0_6144 : ∀ a, (![0, 6144] : Fin 2 → Nat) a + S256x128.size a ≤ S256x8192.size a
  inb_S256x64_S256x1_0_48 : ∀ a, (![0, 48] : Fin 2 → Nat) a + S256x1.size a ≤ S256x64.size a
  slices_S256x64_o0_48_S256x1 : S256x64.Slices ![0, 48] S256x1
  inb_S256x8192_S256x128_0_6272 : ∀ a, (![0, 6272] : Fin 2 → Nat) a + S256x128.size a ≤ S256x8192.size a
  inb_S256x64_S256x1_0_49 : ∀ a, (![0, 49] : Fin 2 → Nat) a + S256x1.size a ≤ S256x64.size a
  slices_S256x64_o0_49_S256x1 : S256x64.Slices ![0, 49] S256x1
  inb_S256x8192_S256x128_0_6400 : ∀ a, (![0, 6400] : Fin 2 → Nat) a + S256x128.size a ≤ S256x8192.size a
  inb_S256x64_S256x1_0_50 : ∀ a, (![0, 50] : Fin 2 → Nat) a + S256x1.size a ≤ S256x64.size a
  slices_S256x64_o0_50_S256x1 : S256x64.Slices ![0, 50] S256x1
  inb_S256x8192_S256x128_0_6528 : ∀ a, (![0, 6528] : Fin 2 → Nat) a + S256x128.size a ≤ S256x8192.size a
  inb_S256x64_S256x1_0_51 : ∀ a, (![0, 51] : Fin 2 → Nat) a + S256x1.size a ≤ S256x64.size a
  slices_S256x64_o0_51_S256x1 : S256x64.Slices ![0, 51] S256x1
  inb_S256x8192_S256x128_0_6656 : ∀ a, (![0, 6656] : Fin 2 → Nat) a + S256x128.size a ≤ S256x8192.size a
  inb_S256x64_S256x1_0_52 : ∀ a, (![0, 52] : Fin 2 → Nat) a + S256x1.size a ≤ S256x64.size a
  slices_S256x64_o0_52_S256x1 : S256x64.Slices ![0, 52] S256x1
  inb_S256x8192_S256x128_0_6784 : ∀ a, (![0, 6784] : Fin 2 → Nat) a + S256x128.size a ≤ S256x8192.size a
  inb_S256x64_S256x1_0_53 : ∀ a, (![0, 53] : Fin 2 → Nat) a + S256x1.size a ≤ S256x64.size a
  slices_S256x64_o0_53_S256x1 : S256x64.Slices ![0, 53] S256x1
  inb_S256x8192_S256x128_0_6912 : ∀ a, (![0, 6912] : Fin 2 → Nat) a + S256x128.size a ≤ S256x8192.size a
  inb_S256x64_S256x1_0_54 : ∀ a, (![0, 54] : Fin 2 → Nat) a + S256x1.size a ≤ S256x64.size a
  slices_S256x64_o0_54_S256x1 : S256x64.Slices ![0, 54] S256x1
  inb_S256x8192_S256x128_0_7040 : ∀ a, (![0, 7040] : Fin 2 → Nat) a + S256x128.size a ≤ S256x8192.size a
  inb_S256x64_S256x1_0_55 : ∀ a, (![0, 55] : Fin 2 → Nat) a + S256x1.size a ≤ S256x64.size a
  slices_S256x64_o0_55_S256x1 : S256x64.Slices ![0, 55] S256x1
  inb_S256x8192_S256x128_0_7168 : ∀ a, (![0, 7168] : Fin 2 → Nat) a + S256x128.size a ≤ S256x8192.size a
  inb_S256x64_S256x1_0_56 : ∀ a, (![0, 56] : Fin 2 → Nat) a + S256x1.size a ≤ S256x64.size a
  slices_S256x64_o0_56_S256x1 : S256x64.Slices ![0, 56] S256x1
  inb_S256x8192_S256x128_0_7296 : ∀ a, (![0, 7296] : Fin 2 → Nat) a + S256x128.size a ≤ S256x8192.size a
  inb_S256x64_S256x1_0_57 : ∀ a, (![0, 57] : Fin 2 → Nat) a + S256x1.size a ≤ S256x64.size a
  slices_S256x64_o0_57_S256x1 : S256x64.Slices ![0, 57] S256x1
  inb_S256x8192_S256x128_0_7424 : ∀ a, (![0, 7424] : Fin 2 → Nat) a + S256x128.size a ≤ S256x8192.size a
  inb_S256x64_S256x1_0_58 : ∀ a, (![0, 58] : Fin 2 → Nat) a + S256x1.size a ≤ S256x64.size a
  slices_S256x64_o0_58_S256x1 : S256x64.Slices ![0, 58] S256x1
  inb_S256x8192_S256x128_0_7552 : ∀ a, (![0, 7552] : Fin 2 → Nat) a + S256x128.size a ≤ S256x8192.size a
  inb_S256x64_S256x1_0_59 : ∀ a, (![0, 59] : Fin 2 → Nat) a + S256x1.size a ≤ S256x64.size a
  slices_S256x64_o0_59_S256x1 : S256x64.Slices ![0, 59] S256x1
  inb_S256x8192_S256x128_0_7680 : ∀ a, (![0, 7680] : Fin 2 → Nat) a + S256x128.size a ≤ S256x8192.size a
  inb_S256x64_S256x1_0_60 : ∀ a, (![0, 60] : Fin 2 → Nat) a + S256x1.size a ≤ S256x64.size a
  slices_S256x64_o0_60_S256x1 : S256x64.Slices ![0, 60] S256x1
  inb_S256x8192_S256x128_0_7808 : ∀ a, (![0, 7808] : Fin 2 → Nat) a + S256x128.size a ≤ S256x8192.size a
  inb_S256x64_S256x1_0_61 : ∀ a, (![0, 61] : Fin 2 → Nat) a + S256x1.size a ≤ S256x64.size a
  slices_S256x64_o0_61_S256x1 : S256x64.Slices ![0, 61] S256x1
  inb_S256x8192_S256x128_0_7936 : ∀ a, (![0, 7936] : Fin 2 → Nat) a + S256x128.size a ≤ S256x8192.size a
  inb_S256x64_S256x1_0_62 : ∀ a, (![0, 62] : Fin 2 → Nat) a + S256x1.size a ≤ S256x64.size a
  slices_S256x64_o0_62_S256x1 : S256x64.Slices ![0, 62] S256x1
  inb_S256x8192_S256x128_0_8064 : ∀ a, (![0, 8064] : Fin 2 → Nat) a + S256x128.size a ≤ S256x8192.size a
  inb_S256x64_S256x1_0_63 : ∀ a, (![0, 63] : Fin 2 → Nat) a + S256x1.size a ≤ S256x64.size a
  slices_S256x64_o0_63_S256x1 : S256x64.Slices ![0, 63] S256x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S8192x64.size a
  hwx0_1 : ∀ i : grid0.Coords, EltTy.bits .f32 = 32 ∨ (Rect.block (s := S8192x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .i32 = 32 ∨ (Rect.block (s := S8192x64) S256x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .f32 = 32 ∨ (Rect.block (s := S8192x8192) S256x8192.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S8192x64x128 : Shape := ⟨3, ![8192, 64, 128]⟩
abbrev S8192x64x1 : Shape := ⟨3, ![8192, 64, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .i32⟩
  | .hbm, ⟨3, _⟩ => ⟨S8192x64x128, .f32⟩
  | .hbm, ⟨4, _⟩ => ⟨S8192x64x1, .f32⟩
  | .hbm, ⟨5, _⟩ => ⟨S8192x64, .f32⟩
  | .hbm, ⟨6, _⟩ => ⟨S8192x64x1, .f32⟩
  | .hbm, ⟨7, _⟩ => ⟨S8192x64x128, .f32⟩
  | .hbm, ⟨8, _⟩ => ⟨S8192x64x128, .f32⟩
  | .hbm, ⟨9, _⟩ => ⟨S8192x64x128, .f32⟩
  | .hbm, ⟨10, _⟩ => ⟨S8192x64x128, .f32⟩
  | .hbm, ⟨11, _⟩ => ⟨S8192x64x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x64x128, .f32⟩
  | .hbm, ⟨16, _⟩ => ⟨S8192x64x128, .f32⟩
  | .hbm, ⟨17, _⟩ => ⟨S_, .f32⟩
  | .hbm, ⟨18, _⟩ => ⟨S8192x64x128, .f32⟩
  | .hbm, ⟨19, _⟩ => ⟨S8192x64x128, .f32⟩
  | .hbm, ⟨20, _⟩ => ⟨S8192x64x128, .f32⟩
  | .hbm, ⟨21, _⟩ => ⟨S8192x64x128, .f32⟩
  | .hbm, ⟨22, _⟩ => ⟨S8192x64x128, .f32⟩
  | .hbm, ⟨23, _⟩ => ⟨S8192x64x128, .f32⟩
  | .hbm, ⟨24, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  shapeCasts_S8192x8192_S8192x64x128 : S8192x8192.ShapeCasts S8192x64x128
  bcast_S8192x64_S8192x64x1_0_1 : S8192x64.BroadcastsInDim S8192x64x1 (![0, 1] : Fin 2 → Fin S8192x64x1.rank)
  bcast_S8192x64x1_S8192x64x128_0_1_2 : S8192x64x1.BroadcastsInDim S8192x64x128 (![0, 1, 2] : Fin 3 → Fin S8192x64x128.rank)
  bcast_S_S8192x64x128 : S_.BroadcastsInDim S8192x64x128 (![] : Fin 0 → Fin S8192x64x128.rank)
  shapeCasts_S8192x64x128_S8192x8192 : S8192x64x128.ShapeCasts S8192x8192

variable [Facts₀]

class Facts : Prop extends Facts₀ where

variable [Facts]
-- ==== Proof.ClipShift.lean ====
/-
  Group-wise fake quantisation on the extended reals, and the one law that joins its two spellings.

  An entry `x` of a matrix row belongs to a group of 128 consecutive columns; the group has a scale `s` and an
  integer zero point `z`.  The entry is replaced by

      clip (round (x / s))  ·  s ,

  where the rounding is to the nearest integer, ties to even, and the zero point only moves the clipping window.
  The window can be moved in two ways:

    * `shifted`   — clip the rounded quotient between `lo - z` and `hi - z`;
    * `recentred` — add `z`, clip between `lo` and `hi`, take `z` off again.

  They are the same number.  Subtracting a REAL `z` is a monotone map of the extended reals, so it passes
  through `min` and `max`, and it undoes adding `z` — at `±∞` too, which is where the rounded quotient sits
  when the scale is `0`.  So the law needs nothing of `x`, `s`, `lo`, `hi`: only that `z` is real, which an
  integer read as a number always is.
-/
import Idealize.ShloMosaic.PureOps.Ideal
import Idealize.ShloMosaic.Lib.ValueIdx

noncomputable section

namespace Cert.FakeQuant

open Idealize.ShloMosaic Idealize.ShloMosaic.ValueIdx

/-! ## The law -/

/-- Subtracting a real number is monotone on the extended reals. -/
theorem sub_real_mono (z : ℝ) : Monotone fun t : EReal => t - (z : EReal) :=
  fun _ _ h => EReal.sub_le_sub h le_rfl

/-- Clipping `r` to the window moved down by `z` is clipping `r + z` to the window itself and moving the result
    down by `z`: for every extended real `r` and every window, as long as `z` is real. -/
theorem clip_shift (lo hi r : EReal) (z : ℝ) :
    min (hi - (z : EReal)) (max (lo - (z : EReal)) r) = min hi (max lo (r + (z : EReal))) - (z : EReal) := by
  have hmin : min hi (max lo (r + (z : EReal))) - (z : EReal)
      = min (hi - (z : EReal)) (max lo (r + (z : EReal)) - (z : EReal)) := (sub_real_mono z).map_min
  have hmax : max lo (r + (z : EReal)) - (z : EReal) = max (lo - (z : EReal)) (r + (z : EReal) - (z : EReal)) :=
    (sub_real_mono z).map_max
  rw [hmin, hmax, EReal.add_sub_cancel_right]

/-! ## One entry -/

/-- The quotient `x / s` rounded to the nearest integer, ties to even (an infinite quotient stays where it is). -/
def roundedQuotient (x s : EReal) : EReal := Ideal.liftRound Ideal.roundHalfEven (Ideal.div x s)

/-- The entry with the clipping window moved by the zero point. -/
def shifted (lo hi x s : EReal) (z : ℝ) : EReal :=
  min (hi - (z : EReal)) (max (lo - (z : EReal)) (roundedQuotient x s)) * s

/-- The entry with the zero point added before the clip and taken off after it. -/
def recentred (lo hi x s : EReal) (z : ℝ) : EReal :=
  (min hi (max lo (roundedQuotient x s + (z : EReal))) - (z : EReal)) * s

/-- The two spellings agree. -/
theorem recentred_eq_shifted (lo hi x s : EReal) (z : ℝ) : recentred lo hi x s z = shifted lo hi x s z := by
  unfold recentred shifted
  rw [clip_shift]

/-! ## The whole matrix -/

/-- The matrix: 8192 rows of 8192 columns. -/
abbrev Mat : Shape := ⟨2, ![8192, 8192]⟩
/-- The per-group tables: 8192 rows of 64 groups. -/
abbrev Grp : Shape := ⟨2, ![8192, 64]⟩

/-- The group an entry belongs to: its own row, column `d / 128`. -/
def grp (i : Mat.Idx) : Grp.Idx :=
  ix2 (i 0) ⟨(i 1).val / 128, by have h := idx2_lt1 i; omega⟩

/-- The lower end of the int4 range, `-8`, as the binary32 word both programs spell it with. -/
abbrev qmin : EReal := Ideal.ofBits .f32 0xC1000000#32
/-- The upper end of the int4 range, `7`. -/
abbrev qmax : EReal := Ideal.ofBits .f32 0x40E00000#32

/-- THE RESULT: every entry quantised by its group's scale and zero point, the window moved by the zero point. -/
def fakeQuant (X : Vec Ideal Mat .f32) (S : Vec Ideal Grp .f32) (Z : Vec Ideal Grp .i32) : Vec Ideal Mat .f32 :=
  fun i => shifted qmin qmax (X i) (S (grp i)) ((Z (grp i)).toInt : ℝ)

end Cert.FakeQuant

end
-- ==== Proof.Tile.lean ====
/-
  What one grid point of the kernel leaves in its output block, as one function of its three input blocks.

  A grid point holds 256 rows: `x0` is its 256 × 8192 slab of the matrix, `x1` and `x2` its 256 × 64 tables of
  scales and zero points.  The body works through the 64 groups one after the other: it loads the 256 × 128 tile of
  the slab at columns `128 g … 128 g + 127` and column `g` of the scales, cuts column `g` out of the two tables
  of moved window ends (`qmin - z` and `qmax - z`, computed once for the whole block), spreads the three columns
  over the 128 lanes, and stores  min (hi) (max (lo) (round (x / s))) · s  back over the tile.
  So the entry at row `p`, lane `q` of tile `g` is the `shifted` quantisation of the slab's entry `(p, 128 g + q)`
  by the scale and the zero point at `(p, g)` — and `(128 g + q) / 128 = g`, so tile by tile the block is ONE function
  of its index (`blockQuant`).  The 64 stores tile the block, hence the block ends holding that function.
-/
import proofs.«127794_j90692529423049_2_alg».proof.Proof.Gen.KernelIdeal.Frame
import proofs.«127794_j90692529423049_2_alg».proof.Proof.ClipShift
import Idealize.ShloMosaic.Lib.Pipeline.Value
import Idealize.ShloMosaic.Lib.ValueIdx

set_option maxRecDepth 16384

noncomputable section

namespace Cert.FakeQuant

open Idealize.ShloMosaic Idealize.ShloMosaic.ValueIdx
open Cert.KernelIdeal Cert.KernelIdeal.Gen

/-! ## The block as one function of its index -/

/-- The group of a block entry: its own row, column `d / 128` of the block's tables. -/
def blockGrp (y : S256x8192.Idx) : S256x64.Idx :=
  ix2 (y 0) ⟨(y 1).val / 128, by have h := idx2_lt1 y; omega⟩

/-- The block a grid point leaves, entry by entry, from its three input blocks. -/
def blockQuant (x0 : Vec Ideal S256x8192 .f32) (x1 : Vec Ideal S256x64 .f32) (x2 : Vec Ideal S256x64 .i32) :
    Vec Ideal S256x8192 .f32 :=
  fun y => shifted qmin qmax (x0 y) (x1 (blockGrp y)) ((x2 (blockGrp y)).toInt : ℝ)

/-! ## The re-laying operations, read at an entry -/

/-- A 256 × 1 column spread over 128 lanes reads, at row `p` and any lane, the column's row `p`. -/
theorem spread_apply (v : FVec Ideal S256x1 .f32) (p : Fin 256) (q : Fin 128) :
    broadcastTo S256x128 v broadcasts_S256x1_S256x128 (ix2 p q) = v (ix2 p 0) :=
  broadcastTo_apply v broadcasts_S256x1_S256x128 (ix2 p q) (ix2 p 0) fun a => match a with
    | ⟨0, _⟩ => by show p.val = if (256 : Nat) = 1 then 0 else p.val; rw [if_neg (by decide)]
    | ⟨1, _⟩ => by show 0 = if (1 : Nat) = 1 then 0 else q.val; rw [if_pos rfl]

/-- Column `g` cut out of a 256 × 64 table reads, at row `p`, the table's entry `(p, g)`. -/
theorem column_apply (w : FVec Ideal S256x64 .f32) (g : Nat) (hg : g < 64) (hsl : S256x64.Slices ![0, g] S256x1)
    (p : Fin 256) : extractStridedSlice S256x1 ![0, g] w hsl (ix2 p 0) = w (ix2 p ⟨g, hg⟩) :=
  extractStridedSlice_apply ![0, g] w hsl (ix2 p 0) (ix2 p ⟨g, hg⟩) fun a => match a with
    | ⟨0, _⟩ => by show p.val = 0 + p.val; omega
    | ⟨1, _⟩ => by show g = g + 0; omega

/-- The lower window end moved by the zero point, at an entry of the table. -/
theorem lower_apply (z : Vec Ideal S256x64 .i32) (k : S256x64.Idx) :
    k0_pay4 (F := Ideal) z k = qmin - (((z k).toInt : ℝ) : EReal) := rfl

/-- The upper window end moved by the zero point, at an entry of the table. -/
theorem upper_apply (z : Vec Ideal S256x64 .i32) (k : S256x64.Idx) :
    k0_pay5 (F := Ideal) z k = qmax - (((z k).toInt : ℝ) : EReal) := rfl

/-! ## One tile -/

/-- TILE `g`: what the body stores over columns `o = 128 g …` of the block, at row `p` and lane `q`, is the
    `shifted` quantisation of the slab's entry `(p, o + q)` by the scale and zero point at `(p, g)`. -/
theorem tile_entry (x0 : Vec Ideal S256x8192 .f32) (x1 : Vec Ideal S256x64 .f32) (x2 : Vec Ideal S256x64 .i32)
    (g o : Nat) (hg : g < 64) (ho : o + 128 ≤ 8192)
    (inbX : ∀ a, (![0, o] : Fin 2 → Nat) a + S256x128.size a ≤ S256x8192.size a)
    (inbS : ∀ a, (![0, g] : Fin 2 → Nat) a + S256x1.size a ≤ S256x64.size a)
    (hsl : S256x64.Slices ![0, g] S256x1) (p : Fin 256) (q : Fin 128) :
    mulf (minimumf (broadcastTo S256x128 (extractStridedSlice S256x1 ![0, g] (k0_pay5 (View.ld x2 r0_0)) hsl) broadcasts_S256x1_S256x128)
        (maximumf (broadcastTo S256x128 (extractStridedSlice S256x1 ![0, g] (k0_pay4 (View.ld x2 r0_0)) hsl) broadcasts_S256x1_S256x128)
          (roundeven (divf (View.ld x0 (Rect.unit (s := S256x8192) ![0, o] S256x128.size inbX))
            (broadcastTo S256x128 (View.ld x1 (Rect.unit (s := S256x64) ![0, g] S256x1.size inbS)) broadcasts_S256x1_S256x128)))))
      (broadcastTo S256x128 (View.ld x1 (Rect.unit (s := S256x64) ![0, g] S256x1.size inbS)) broadcasts_S256x1_S256x128) (ix2 p q)
    = shifted qmin qmax (x0 (ix2 p ⟨o + q.val, by have := q.isLt; omega⟩)) (x1 (ix2 p ⟨g, hg⟩))
        ((x2 (ix2 p ⟨g, hg⟩)).toInt : ℝ) := by
  -- the whole table of zero points, loaded through the block's own rectangle, is the table
  have hz : (![0, 0] : Fin 2 → Nat) = fun _ => 0 := funext fun a => by fin_cases a <;> rfl
  have ez : View.ld x2 r0_0 = x2 := View.ld_unit_zero (S := S256x64) hz _ x2
  -- the scale column, spread: the table's entry (p, g)
  have es : broadcastTo S256x128 (View.ld x1 (Rect.unit (s := S256x64) ![0, g] S256x1.size inbS)) broadcasts_S256x1_S256x128 (ix2 p q)
      = x1 (ix2 p ⟨g, hg⟩) := by
    rw [spread_apply]
    show x1 _ = x1 _
    refine congrArg x1 (funext fun a => Fin.ext ?_)
    match a with
    | ⟨0, _⟩ => show 0 + 1 * p.val = p.val; omega
    | ⟨1, _⟩ => show g + 1 * 0 = g; omega
  -- the tile of the slab: its entry (p, o + q)
  have ex : View.ld x0 (Rect.unit (s := S256x8192) ![0, o] S256x128.size inbX) (ix2 p q)
      = x0 (ix2 p ⟨o + q.val, by have := q.isLt; omega⟩) := by
    show x0 _ = x0 _
    refine congrArg x0 (funext fun a => Fin.ext ?_)
    match a with
    | ⟨0, _⟩ => show 0 + 1 * p.val = p.val; omega
    | ⟨1, _⟩ => show o + 1 * q.val = o + q.val; omega
  rw [mulf_apply, minimumf_apply, maximumf_apply, es, spread_apply, spread_apply, column_apply _ g hg, column_apply _ g hg,
    upper_apply, lower_apply, ez]
  show min _ (max _ (Ideal.liftRound Ideal.roundHalfEven (Ideal.div
      (View.ld x0 (Rect.unit (s := S256x8192) ![0, o] S256x128.size inbX) (ix2 p q))
      (broadcastTo S256x128 (View.ld x1 (Rect.unit (s := S256x64) ![0, g] S256x1.size inbS)) broadcasts_S256x1_S256x128 (ix2 p q))))) * _ = _
  rw [es, ex]
  rfl

/-- The same, in the form a store's piece asks for: the tile at its own index `x` is `blockQuant` at the block index
    under the store's rectangle (`o = 128 g`, so the entry's group is `g`). -/
theorem tile_piece (x0 : Vec Ideal S256x8192 .f32) (x1 : Vec Ideal S256x64 .f32) (x2 : Vec Ideal S256x64 .i32)
    (g o : Nat) (hg : g < 64) (hog : o = 128 * g)
    (inbX : ∀ a, (![0, o] : Fin 2 → Nat) a + S256x128.size a ≤ S256x8192.size a)
    (inbS : ∀ a, (![0, g] : Fin 2 → Nat) a + S256x1.size a ≤ S256x64.size a)
    (hsl : S256x64.Slices ![0, g] S256x1) (x : S256x128.Idx) :
    mulf (minimumf (broadcastTo S256x128 (extractStridedSlice S256x1 ![0, g] (k0_pay5 (View.ld x2 r0_0)) hsl) broadcasts_S256x1_S256x128)
        (maximumf (broadcastTo S256x128 (extractStridedSlice S256x1 ![0, g] (k0_pay4 (View.ld x2 r0_0)) hsl) broadcasts_S256x1_S256x128)
          (roundeven (divf (View.ld x0 (Rect.unit (s := S256x8192) ![0, o] S256x128.size inbX))
            (broadcastTo S256x128 (View.ld x1 (Rect.unit (s := S256x64) ![0, g] S256x1.size inbS)) broadcasts_S256x1_S256x128)))))
      (broadcastTo S256x128 (View.ld x1 (Rect.unit (s := S256x64) ![0, g] S256x1.size inbS)) broadcasts_S256x1_S256x128) x
    = blockQuant x0 x1 x2 ((Rect.unit (s := S256x8192) ![0, o] S256x128.size inbX).emb x) := by
  obtain ⟨p, q, rfl⟩ : ∃ (p : Fin 256) (q : Fin 128), x = ix2 p q := ⟨x 0, x 1, eq_ix2 x⟩
  have hq : q.val < 128 := q.isLt
  rw [tile_entry x0 x1 x2 g o hg (by omega) inbX inbS hsl p q]
  -- the block index under the rectangle, and its group
  have hy : (Rect.unit (s := S256x8192) ![0, o] S256x128.size inbX).emb (ix2 p q)
      = ix2 p ⟨o + q.val, by omega⟩ := by
    funext a; apply Fin.ext
    match a with
    | ⟨0, _⟩ => show 0 + 1 * p.val = p.val; omega
    | ⟨1, _⟩ => show o + 1 * q.val = o + q.val; omega
  have hgrp : blockGrp (ix2 p ⟨o + q.val, by omega⟩) = ix2 p ⟨g, hg⟩ := by
    funext a; apply Fin.ext
    match a with
    | ⟨0, _⟩ => rfl
    | ⟨1, _⟩ => show (o + q.val) / 128 = g; omega
  rw [hy]
  unfold blockQuant
  rw [hgrp]

/-! ## The whole block -/

/-- THE BLOCK a grid point leaves is `blockQuant` of its input blocks: each of the 64 stores writes the tile of
    that function its rectangle names, and the stores tile the block. -/
theorem out_eq (x0 : Vec Ideal S256x8192 .f32) (x1 : Vec Ideal S256x64 .f32) (x2 : Vec Ideal S256x64 .i32) :
    out0_3 x0 x1 x2 = blockQuant x0 x1 x2 := by
  funext y
  unfold out0_3
  refine View.canon_apply_of_pieces (blockQuant x0 x1 x2) _ ?_ y (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat (refine List.forall_mem_cons.2 ⟨fun x => tile_piece x0 x1 x2 _ _ (by decide) (by decide) (by decide) (by decide) (by decide) x, ?_⟩)
  intro p hp
  cases hp

end Cert.FakeQuant

end
-- ==== Proof.KernelArray.lean ====
/-
  From the blocks to the whole array: after the kernel's run the result array holds `fakeQuant` of the arguments.

  The grid has 32 points; point `t` stages rows `256 t … 256 t + 255` of all four arrays — the full width of each
  (8192 columns of the matrix and of the result, 64 columns of the two tables) — and writes its result block back.
  Inside a block the entry `(p, d)` is the array's entry `(256 t + p, d)`, and its group `(p, d / 128)` in the
  block's tables is the array's group `(256 t + p, d / 128)`: a block of `fakeQuant` of the arrays is `blockQuant`
  of the blocks.  Every row lies in exactly one of the 32 row blocks, so the written blocks cover the array.
-/
import proofs.«127794_j90692529423049_2_alg».proof.Proof.Gen.KernelIdeal.Value
import proofs.«127794_j90692529423049_2_alg».proof.Proof.Tile

noncomputable section

namespace Cert.FakeQuant

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## One entry of a block against one entry of the array -/

/-- If a block entry `j` and an array entry `i` hold the same matrix value, and their groups hold the same scale and
    the same zero point, then the block's quantised entry is the array's. -/
theorem block_entry (X : Vec Ideal Mat .f32) (S : Vec Ideal Grp .f32) (Z : Vec Ideal Grp .i32)
    (b0 : Vec Ideal S256x8192 .f32) (b1 : Vec Ideal S256x64 .f32) (b2 : Vec Ideal S256x64 .i32)
    (j : S256x8192.Idx) (i : Mat.Idx)
    (h0 : b0 j = X i) (h1 : b1 (blockGrp j) = S (grp i)) (h2 : b2 (blockGrp j) = Z (grp i)) :
    blockQuant b0 b1 b2 j = fakeQuant X S Z i := by
  unfold blockQuant fakeQuant
  rw [h0, h1, h2]

/-! ## The index maps over the grid -/

/-- The printed index maps, decided over the 32 points: every window's block at a point is the same row block,
    and column block 0 of its array. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (1 : Fin 2) = 0 :=
  (by decide +kernel : ∀ t : Fin grid0.N, _)

/-- Every one of the 32 row blocks is some point's. -/
theorem index_onto : ∀ q : Fin 32, ∃ t : Fin cfg0.N, win0_3.index t = ![q.val, 0] :=
  (by decide +kernel : ∀ q : Fin 32, ∃ t : Fin grid0.N, win0_3.index t = ![q.val, 0])

/-! ## What a point writes back -/

/-- WHAT POINT `t` WRITES BACK is block `t` of `fakeQuant` of the three argument arrays. -/
theorem flushed_eq (c : Dev nD) (t : Fin cfg0.N) :
    (dats m 0 c).flushed 3 t = ((cfg0.win 3).blk t).view.read (Elt Ideal)
      (fakeQuant (V m c main_arg0) (V m c main_arg1) (V m c main_arg2)) := by
  rw [Cert.KernelIdeal.Value.flushed3, out_eq]
  obtain ⟨e00, e01, e10, e11, e20, e21, e31⟩ := index_facts t
  funext j
  show blockQuant (iblk m c 0 t) (iblk m c 1 t) (iblk m c 2 t) j
    = fakeQuant (V m c main_arg0) (V m c main_arg1) (V m c main_arg2) (((cfg0.win 3).blk t).view.emb j)
  refine block_entry _ _ _ _ _ _ j _ ?_ ?_ ?_
  · -- the matrix: same row block, same columns
    show V m c main_arg0 (((cfg0.win 0).blk t).view.emb j) = V m c main_arg0 (((cfg0.win 3).blk t).view.emb j)
    refine congrArg (V m c main_arg0) (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 8192 + 1 * (j 1).val = win0_3.index t (1 : Fin 2) * 8192 + 1 * (j 1).val; omega
  · -- the scales: same row, column d / 128
    show V m c main_arg1 (((cfg0.win 1).blk t).view.emb (blockGrp j))
      = V m c main_arg1 (grp (((cfg0.win 3).blk t).view.emb j))
    refine congrArg (V m c main_arg1) (funext fun a => Fin.ext ?_)
    match a with
    | ⟨0, _⟩ => show win0_1.index t (0 : Fin 2) * 256 + 1 * (j 0).val = win0_3.index t (0 : Fin 2) * 256 + 1 * (j 0).val; omega
    | ⟨1, _⟩ => show win0_1.index t (1 : Fin 2) * 64 + 1 * ((j 1).val / 128) = (win0_3.index t (1 : Fin 2) * 8192 + 1 * (j 1).val) / 128; omega
  · -- the zero points: the same entry of the other table
    show V m c main_arg2 (((cfg0.win 2).blk t).view.emb (blockGrp j))
      = V m c main_arg2 (grp (((cfg0.win 3).blk t).view.emb j))
    refine congrArg (V m c main_arg2) (funext fun a => Fin.ext ?_)
    match a with
    | ⟨0, _⟩ => show win0_2.index t (0 : Fin 2) * 256 + 1 * (j 0).val = win0_3.index t (0 : Fin 2) * 256 + 1 * (j 0).val; omega
    | ⟨1, _⟩ => show win0_2.index t (1 : Fin 2) * 64 + 1 * ((j 1).val / 128) = (win0_3.index t (1 : Fin 2) * 8192 + 1 * (j 1).val) / 128; omega

/-! ## The blocks cover the array -/

/-- An array index is in point `t`'s block iff each coordinate is in the block's range on its axis. -/
theorem mem_blk (t : Fin cfg0.N) (i : S8192x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v0).slice (win0_3.rect t)).set ↔ _
  rw [View.set_slice_whole, Rect.mem_set_unit]
  exact Iff.rfl

/-- Row `r` lies in the block of the point whose row block is `r / 256`. -/
theorem covered (i : S8192x8192.Idx) :
    ∃ t : Fin cfg0.N, (cfg0.win 3).flush t = true ∧ i ∈ ((cfg0.win 3).blk t).view.set := by
  have hi0 : (i 0).val < 8192 := idx2_lt0 i
  have hi1 : (i 1).val < 8192 := idx2_lt1 i
  obtain ⟨t, ht⟩ := index_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 8192 ≤ (i 1).val ∧ (i 1).val < win0_3.index t (1 : Fin 2) * 8192 + 8192; omega

/-! ## The array, and the run -/

/-- THE RESULT ARRAY after the run is `fakeQuant` of the argument arrays as launched. -/
theorem final (c : Dev nD) : (dats m 0 c).arrAt 3 cfg0.N
    = fakeQuant (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: every weakly fair execution terminates with the result array at `fakeQuant` of the
    arguments and the arguments unchanged. -/
theorem kernel_run : θ_run defs (onTc (τ := τ) (main (F := Ideal))) ⟨m, fun _ => 0, ρ⟩ fun r => ∀ c : Dev nD,
      r.2.mem ((c : Thread nD τ).loc main_v0)
        = fakeQuant (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.FakeQuant

end
-- ==== Proof.Reference.lean ====
/-
  The reference computes `fakeQuant` too.

  The reference re-lays the matrix as rows × 64 groups × 128 lanes, spreads each group's scale and zero point over
  the lanes, and computes  (clip (round (x / s) + z) − z) · s  — the `recentred` spelling — before re-laying back.
  Read at an entry `(n, d)` of the result: the two re-layings cancel (the entry's row-major position is kept), the
  spread tables are read at `(n, d / 128)`, and `recentred = shifted` is the law of ClipShift.
-/
import proofs.«127794_j90692529423049_2_alg».proof.Proof.Gen.ReferenceIdeal.Read
import proofs.«127794_j90692529423049_2_alg».proof.Proof.ClipShift

noncomputable section

namespace Cert.FakeQuant

open Idealize.ShloMosaic Idealize.ShloMosaic.ValueIdx
open Cert.ReferenceIdeal Cert.ReferenceIdeal.Read

/-- The reference's result, as a function of the three arguments, is `fakeQuant`. -/
theorem reference_eq (X : Vec Ideal Mat .f32) (S : Vec Ideal Grp .f32) (Z : Vec Ideal Grp .i32) :
    val_main_v14 (F := Ideal) X S Z = fakeQuant X S Z := by
  funext i
  have hi0 : (i 0).val < 8192 := idx2_lt0 i
  have hi1 : (i 1).val < 8192 := idx2_lt1 i
  -- re-laid to rows × groups × lanes and back, an entry is itself
  have eX : idx_main_v0 (idx_main_v14 i) = i := funext fun a => Fin.ext (by
    match a with
    | ⟨0, _⟩ => show ((((i 0).val * 8192 + (i 1).val) / 8192 * 64 + ((i 0).val * 8192 + (i 1).val) / 128 % 64) * 128
        + ((i 0).val * 8192 + (i 1).val) % 128) / 8192 = (i 0).val; omega
    | ⟨1, _⟩ => show ((((i 0).val * 8192 + (i 1).val) / 8192 * 64 + ((i 0).val * 8192 + (i 1).val) / 128 % 64) * 128
        + ((i 0).val * 8192 + (i 1).val) % 128) % 8192 = (i 1).val; omega)
  -- the spread tables (the scales twice, the zero points twice) are read at the entry's group
  have eS1 : idx_main_v1 (idx_main_v4 (idx_main_v14 i)) = grp i := funext fun a => Fin.ext (by
    match a with
    | ⟨0, _⟩ => show ((i 0).val * 8192 + (i 1).val) / 8192 = (i 0).val; omega
    | ⟨1, _⟩ => show ((i 0).val * 8192 + (i 1).val) / 128 % 64 = (i 1).val / 128; omega)
  have eZ1 : idx_main_v3 (idx_main_v7 (idx_main_v14 i)) = grp i := funext fun a => Fin.ext (by
    match a with
    | ⟨0, _⟩ => show ((i 0).val * 8192 + (i 1).val) / 8192 = (i 0).val; omega
    | ⟨1, _⟩ => show ((i 0).val * 8192 + (i 1).val) / 128 % 64 = (i 1).val / 128; omega)
  simp only [val_main_v14_apply, val_main_v13_apply, val_main_v12_apply, val_main_v11_apply, val_main_v10_apply,
    val_main_v9_apply, val_main_call1_v4_apply, val_main_call1_v3_apply, val_main_cst_0_apply, val_main_call1_v2_apply,
    val_main_call1_v1_apply, val_main_call1_v0_apply, val_main_cst_apply, val_main_v8_apply, val_main_v7_apply,
    val_main_v6_apply, val_main_v5_apply, val_main_v4_apply, val_main_v3_apply, val_main_v2_apply, val_main_v1_apply,
    val_main_v0_apply]
  rw [eX, eS1, eZ1]
  exact recentred_eq_shifted qmin qmax (X i) (S (grp i)) ((Z (grp i)).toInt : ℝ)

end Cert.FakeQuant

end
-- ==== Proof.lean ====
/-
  A per-group int4 fake quantisation of an 8192 × 8192 matrix: the kernel against its jnp reference, on the
  extended reals.

  Every entry `x` is replaced by  clip (round (x / s)) · s, with `s` the scale and `z` the integer zero point of the
  entry's group (its row, 128 consecutive columns).  The kernel folds the zero point into the clipping window — it
  clips the rounded quotient between `-8 - z` and `7 - z` —, the reference adds `z`, clips between `-8` and `7`
  and subtracts `z` again.  The two agree because subtracting a real number is monotone on the extended reals and
  undoes adding it (Proof/ClipShift.lean); nothing is asked of `x` or `s`, so the proof never opens the precondition.

    * Proof/ClipShift.lean   — the law, and the result as one function `fakeQuant` of the three arguments;
    * Proof/Tile.lean        — what one grid point's 64 stores leave in its 256-row block;
    * Proof/KernelArray.lean — the 32 row blocks cover the array: the kernel's result is `fakeQuant`;
    * Proof/Reference.lean   — the reference's result, read at an entry, is `fakeQuant`.

  The three frames are the generated frame runs (the reference's is its generated run with the result dropped); the
  idealisation rewrote no operation, so `preserves` has nothing to state.
-/
import proofs.«127794_j90692529423049_2_alg».proof.Defs
import proofs.«127794_j90692529423049_2_alg».proof.Proof.Gen.Kernel
import proofs.«127794_j90692529423049_2_alg».proof.Proof.Gen.Kernel.Skeleton
import proofs.«127794_j90692529423049_2_alg».proof.Proof.Gen.Kernel.Launch
import proofs.«127794_j90692529423049_2_alg».proof.Proof.Gen.Kernel.Points
import proofs.«127794_j90692529423049_2_alg».proof.Proof.Gen.Kernel.Frame
import proofs.«127794_j90692529423049_2_alg».proof.Proof.Gen.KernelIdeal
import proofs.«127794_j90692529423049_2_alg».proof.Proof.Gen.KernelIdeal.Skeleton
import proofs.«127794_j90692529423049_2_alg».proof.Proof.Gen.KernelIdeal.Launch
import proofs.«127794_j90692529423049_2_alg».proof.Proof.Gen.KernelIdeal.Points
import proofs.«127794_j90692529423049_2_alg».proof.Proof.Gen.KernelIdeal.Frame
import proofs.«127794_j90692529423049_2_alg».proof.Proof.Gen.ReferenceIdeal
import proofs.«127794_j90692529423049_2_alg».proof.Proof.Gen.Pre_finite_inputs
import proofs.«127794_j90692529423049_2_alg».proof.Proof.Gen.KernelIdeal.Value
import proofs.«127794_j90692529423049_2_alg».proof.Proof.Gen.ReferenceIdeal.Run
import proofs.«127794_j90692529423049_2_alg».proof.Proof.Gen.ReferenceIdeal.Read
import proofs.«127794_j90692529423049_2_alg».proof.Proof.KernelArray
import proofs.«127794_j90692529423049_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at `fakeQuant` of the arguments: the kernel
    block by block, the reference entry by entry through the clip-shift law. -/
theorem algebraic : Cert.algebraic_KernelIdeal_ReferenceIdeal := by
  intro m ρ m' ρ' _ hagree
  refine ⟨_, Cert.FakeQuant.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.FakeQuant.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
